-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1 : Shape := ⟨1, ![1]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S128x128 .f32) (main_arg5 : FVec F S128 .f32) (main_arg7 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg7 main_v29
  let main_c_11 : IVec S_ 1 := constantI S_ 1 1#1
  let main_v31 : IVec S_ 1 := (fun x v => Host.reduce IntOp.andi x v reducesTo_S800000_S_d0 h_S_) main_v30 main_c_11
  let main_v32 : IVec S_ 1 := andi main_v28 main_v31
  main_v32

def fn {F : FTy → Type} [FloatOps F] (main_arg0 : FVec F S50000x128 .f32) (main_arg1 : FVec F S1 .f32) (main_arg2 : FVec F S128x128 .f32) (main_arg3 : FVec F S128 .f32) (main_arg4 : FVec F S128x128 .f32) (main_arg5 : FVec F S128 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg7 main_v13 main_v16
-- ==== Kernel.lean ====
abbrev S50000x128 : Shape := ⟨2, ![50000, 128]⟩
abbrev S1 : Shape := ⟨1, ![1]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩
abbrev S5000x128 : Shape := ⟨2, ![5000, 128]⟩
abbrev S1x128 : Shape := ⟨2, ![1, 128]⟩

abbrev nBuf : Space → Nat
  | .hbm => 35
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000x128, .f32⟩
  | .hbm, ⟨32, _⟩ => ⟨S128x128, .bf16⟩
  | .hbm, ⟨33, _⟩ => ⟨S128x128, .bf16⟩
  | .hbm, ⟨34, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S1 : Shape := ⟨1, ![1]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowMlp.lean ====
/-
  The function both programs compute on ONE row of the aggregated features.

  A graph-isomorphism layer first forms, for every node, the row
      rst[n, :] = (1 + eps) * feat[n, :] + sum over edges e into n of feat[src e, :],
  and then sends each row, on its own, through a perceptron of two dense layers, each followed by the
  positive part:
      h[k]   = max (sum_j rst[n, j] * W1[j, k] + b1[k]) 0,
      out[c] = max (sum_k h[k] * W2[k, c] + b2[c]) 0.
  Entry (n, c) of the result therefore depends on row n of rst and on nothing else of rst. That is why a
  program that treats the rows in blocks of 5000 and a program that multiplies the whole 50000-row matrix at once
  agree: both evaluate the function below at every row. Over the extended reals no rounding is left, and a change
  of float format is the identity, so the weights may be read in either format.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- One dense layer on a row `r` of 128 entries followed by the positive part, at output column `c`:
    `max (sum_k r k * W[k, c] + b[c]) 0`. -/
def dense (r : Fin 128 → EReal) (W : (⟨2, ![128, 128]⟩ : Shape).Idx → EReal) (b : (⟨1, ![128]⟩ : Shape).Idx → EReal)
    (c : Fin 128) : EReal :=
  max ((∑ k : Fin 128, r k * W (ix2 k c)) + b (ix1 c)) 0

/-- The two layers in a row: the second layer applied to the first layer's 128 outputs. -/
def rowMlp (r : Fin 128 → EReal) (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (c : Fin 128) : EReal :=
  dense (fun k => dense r W1 b1 k) W2 b2 c

/-- The whole result: entry `(n, c)` is the perceptron of row `n` of `rst` at column `c`. -/
def mlp (rst : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![50000, 128]⟩ : Shape).Idx → EReal :=
  fun i => rowMlp (fun j => rst (ix2 (n0 := 50000) (n1 := 128) (i 0) j)) W1 b1 W2 b2 (i 1)

/-- At row `n`, column `c`: the perceptron of row `n`. -/
theorem mlp_apply (rst : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (n : Fin 50000) (c : Fin 128) :
    mlp rst W1 b1 W2 b2 (ix2 n c) = rowMlp (fun j => rst (ix2 n j)) W1 b1 W2 b2 c := rfl

end Cert.Gin

end
-- ==== Proof.BlockRow.lean ====
/-
  The kernel body's stored value, read at one entry of a block.

  The body loads a block of 5000 rows of rst, the two weight matrices and the two bias rows, and stores
      max (max (x * W1 + b1) 0 * W2 + b2) 0
  where `*` is the matrix product into a zero accumulator and each bias row is repeated down the 5000 rows.
  Read at row p and column q of the block this is the two-layer perceptron of row p of the block: a matrix
  product into zero is the plain sum over the contracted index, the roundings to the narrower format are the
  identity on extended reals, the bias row repeated down the rows is the bias at column q, and the positive part
  is `max · 0`.
-/
import proofs.«172849_j31121333027433_2_alg».proof.Proof.Gen.KernelIdeal.Skeleton
import proofs.«172849_j31121333027433_2_alg».proof.Proof.RowMlp
import Idealize.ShloMosaic.Lib.Pipeline.Value
import Idealize.ShloMosaic.Lib.ValueIdx
import Idealize.ShloMosaic.PureOps.Ideal.Laws

noncomputable section

namespace Cert.Gin

open Cert.KernelIdeal Cert.KernelIdeal.Gen Idealize.ShloMosaic Idealize.ShloMosaic.ValueIdx

/-- A bias row `b` of 128 entries, given a leading axis of length one and then repeated down 5000 rows, holds
    `b q` at row `p`, column `q`. -/
theorem bias_rows (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ broadcasts_S1x128_S5000x128 (ix2 p q) (ix2 (0 : Fin 1) q) (fun a => by
    match a with
    | ⟨0, _⟩ => rfl
    | ⟨1, _⟩ => rfl)]
  refine (shapeCast_addUnit_apply ![128] b shapeCasts_S128_S1x128 (ix2 (0 : Fin 1) q)).trans ?_
  exact congrArg b (funext fun a => by match a with | ⟨0, _⟩ => rfl)

/-- The left operand's index at output `j` and contraction index `u`: row `j 0`. -/
theorem lhs_row (j : S5000x128.Idx) (u : dot_S5000x128_S128x128_S5000x128_1_0_0_1_n_n.contr.Idx) :
    (dot_S5000x128_S128x128_S5000x128_1_0_0_1_n_n.lhsIdx j u 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column the contraction coordinate. -/
theorem lhs_col (j : S5000x128.Idx) (u : dot_S5000x128_S128x128_S5000x128_1_0_0_1_n_n.contr.Idx) :
    (dot_S5000x128_S128x128_S5000x128_1_0_0_1_n_n.lhsIdx j u 1).val = (u ⟨0, by decide⟩).val :=
  dot_S5000x128_S128x128_S5000x128_1_0_0_1_n_n.lhsIdx_val_of_single rfl j u
/-- The right operand's index: row the contraction coordinate … -/
theorem rhs_row (j : S5000x128.Idx) (u : dot_S5000x128_S128x128_S5000x128_1_0_0_1_n_n.contr.Idx) :
    (dot_S5000x128_S128x128_S5000x128_1_0_0_1_n_n.rhsIdx j u 0).val = (u ⟨0, by decide⟩).val :=
  dot_S5000x128_S128x128_S5000x128_1_0_0_1_n_n.rhsIdx_val_of_single rfl j u
/-- … and column `j 1`. -/
theorem rhs_col (j : S5000x128.Idx) (u : dot_S5000x128_S128x128_S5000x128_1_0_0_1_n_n.contr.Idx) :
    (dot_S5000x128_S128x128_S5000x128_1_0_0_1_n_n.rhsIdx j u 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a block `X` (its entries rounded to the narrower format, which changes nothing here)
    with a weight matrix, into the zero accumulator, at row `p` and column `q`: the sum over `k` of
    `X[p, k] * W[k, q]`. -/
theorem product_entry (X : FVec Ideal S5000x128 .f32) (w : FVec Ideal S128x128 .bf16) (p : Fin 5000) (q : Fin 128) :
    matmul dot_S5000x128_S128x128_S5000x128_1_0_0_1_n_n none (truncf .bf16 X bitsLt_bf16_f32)
        (shapeCast S128x128 w shapeCasts_S128x128_S128x128) (constant S5000x128 .f32 0x00000000#32) (ix2 p q)
      = ∑ k : Fin 128, X (ix2 p k) * w (ix2 k q) := by
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- One layer of the body at row `p`, column `q` of the block: the dense layer of row `p`. -/
theorem layer_entry (X : FVec Ideal S5000x128 .f32) (w : FVec Ideal S128x128 .bf16) (b : FVec Ideal S128 .f32)
    (p : Fin 5000) (q : Fin 128) :
    maximumf (addf (matmul dot_S5000x128_S128x128_S5000x128_1_0_0_1_n_n none (truncf .bf16 X bitsLt_bf16_f32)
          (shapeCast S128x128 w shapeCasts_S128x128_S128x128) (constant S5000x128 .f32 0x00000000#32))
        (broadcastTo S5000x128 (shapeCast S1x128 b shapeCasts_S128_S1x128) broadcasts_S1x128_S5000x128))
      (broadcast S5000x128 (Scalar.ofBits .f32 0x00000000#32)) (ix2 p q)
      = dense (fun k => X (ix2 p k)) w b q := by
  show max (matmul dot_S5000x128_S128x128_S5000x128_1_0_0_1_n_n none (truncf .bf16 X bitsLt_bf16_f32)
          (shapeCast S128x128 w shapeCasts_S128x128_S128x128) (constant S5000x128 .f32 0x00000000#32) (ix2 p q)
        + broadcastTo S5000x128 (shapeCast S1x128 b shapeCasts_S128_S1x128) broadcasts_S1x128_S5000x128 (ix2 p q))
      (Ideal.ofBits .f32 0x00000000#32) = _
  rw [product_entry, bias_rows, Ideal.ofBits_zero_f32]
  rfl

/-- The body's stored value at row `p`, column `q` of the block is the two-layer perceptron of row `p` of the
    loaded block of rst. -/
theorem stored_entry (x0 : FVec Ideal S5000x128 .f32) (x1 : FVec Ideal S128x128 .bf16) (x2 : FVec Ideal S128 .f32)
    (x3 : FVec Ideal S128x128 .bf16) (x4 : FVec Ideal S128 .f32) (p : Fin 5000) (q : Fin 128) :
    k0_pay1 (F := Ideal) x0 x1 x2 x3 x4 (ix2 p q) = rowMlp (fun j => x0 (ix2 p j)) x1 x2 x3 x4 q := by
  unfold k0_pay1
  rw [shapeCast_self x0]
  refine (layer_entry _ x3 x4 p q).trans ?_
  unfold rowMlp
  refine congrArg (fun r => dense r x3 x4 q) (funext fun k => ?_)
  exact layer_entry x0 x1 x2 p k

end Cert.Gin

end
-- ==== Proof.LibScatterInit.lean ====
/-
  A general law of the accumulating scatter over the extended reals, and a general fact about the index wrap
  that array indexing applies to a possibly negative index.

  An accumulating scatter leaves, at every element, the element it started from plus the sum of the updates that
  land there. Addition of extended reals is associative and has the neutral element 0, so starting the
  accumulation from an array `x` gives the same result as starting it from zeros and adding `x` afterwards:
      x i + S i = x i + (0 + S i).
  No finiteness is needed: only `0 + a = a`.
-/
import Idealize.ShloMosaic.PureOps.Ideal
import Idealize.ShloMosaic.PureOps.Ideal.Laws
import Idealize.ShloMosaic.Lib.Affine
import Idealize.ShloMosaic.Lib.ValueIdx

noncomputable section

namespace Cert.Gin

open Idealize.ShloMosaic Idealize.ShloMosaic.ValueIdx

/-- An accumulating scatter into `x` is `x` plus the same scatter into an array `z` of zeros (generic in the three
    shapes, the dimension numbers and the index width). -/
theorem scatterAdd_into_eq_add_scatterAdd_zero {s si su : Shape} (d : ScatterDims s si su) {w : Nat}
    (x z : FVec Ideal s .f32) (hz : ∀ i, z i = 0) (idx : IVec si w) (upd : FVec Ideal su .f32) :
    Host.scatterAdd d x idx upd = addf x (Host.scatterAdd d z idx upd) := by
  funext i
  show x i + _ = x i + (z i + _)
  rw [hz i, zero_add]

/-- The wrap `if x < 0 then x + n else x`, applied elementwise to 32-bit words read signed, changes nothing on an
    array whose entries are all nonnegative (generic in the shape and in the array added on the negative branch). -/
theorem wrap_of_nonneg {s : Shape} (x zero shifted : IVec s 32) (hzero : ∀ e, zero e = 0#32)
    (hx : ∀ e, 0 ≤ (x e).toInt) :
    select (cmpi .slt x zero) shifted x = x := by
  funext e
  show Scalar.select (IntOp.cmpi .slt (x e) (zero e)) (shifted e) (x e) = x e
  have hn : ¬ IntOp.cmpi .slt (x e) (zero e) = 1#1 := fun hc => by
    have h1 := IntOp.cmpi_slt.1 hc
    rw [hzero e] at h1
    have z0 : (0#32 : BitVec 32).toInt = 0 := by decide
    have := hx e
    omega
  rw [eq_zero_of_ne_one hn, select_zero]

end Cert.Gin

end
-- ==== Proof.Aggregate.lean ====
/-
  The aggregated rows `rst`: the two programs form the same array.

  One program starts the accumulating scatter from `(1 + eps) * feat` and adds, at each destination row, the source
  rows of the edges arriving there. The other starts the same scatter from zeros and adds `(1 + eps) * feat`
  afterwards. By associativity and `0 + a = a` on the extended reals these are one array, PROVIDED both scatters
  use the same destination row for every edge. They do not in general: the first program wraps a negative
  destination index `d` to `d + 50000` (a row counted from the end), the second uses `d` as it is and drops the
  update when `d` is out of range. Under the precondition every destination index is nonnegative, the wrap is
  the identity, and the two index arrays are equal. The source indices are wrapped the same way in both programs
  and the gathered rows are literally the same term, so nothing is needed of them.
-/
import proofs.«172849_j31121333027433_2_alg».proof.Proof.Gen.KernelIdeal
import proofs.«172849_j31121333027433_2_alg».proof.Proof.Gen.ReferenceIdeal.Read
import proofs.«172849_j31121333027433_2_alg».proof.Proof.LibScatterInit

noncomputable section

namespace Cert.Gin

open Cert.KernelIdeal Cert.KernelIdeal.Gen Idealize.ShloMosaic

/-- The aggregated rows as the first program forms them from the features `x0`, the scalar `x1 = eps`, the source
    indices `x6` and the destination indices `x7`: the scatter starts from `(1 + eps) * feat`, at wrapped
    destination rows. -/
def rstKernel (x0 : FVec Ideal S50000x128 .f32) (x1 : FVec Ideal S1 .f32) (x6 x7 : IVec S800000 32) :
    FVec Ideal S50000x128 .f32 :=
  Host.scatterAdd scatter_S50000x128_S800000x1_S800000x128_1_0_0_1
    (mulf (broadcastInDim S50000x128 ![0, 1] bcast_S1x1_S50000x128_0_1 (broadcastInDim S1x1 ![1] bcast_S1_S1x1_1 (addf (broadcastInDim S1 ![] bcast_S_S1 (constant (F := Ideal) S_ .f32 0x3F800000#32)) x1))) x0)
    (broadcastInDim S800000x1 ![0] bcast_S800000_S800000x1_0 (select (cmpi .slt x7 (broadcastInDim S800000 ![] bcast_S_S800000 (constantI S_ 32 0#32))) (addi x7 (broadcastInDim S800000 ![] bcast_S_S800000 (constantI S_ 32 50000#32))) x7))
    (Host.gather gather_S50000x128_S800000x1_S800000x128_1_0_n_n_0_1_1128 x0 (broadcastInDim S800000x1 ![0] bcast_S800000_S800000x1_0 (select (cmpi .slt x6 (broadcastInDim S800000 ![] bcast_S_S800000 (constantI S_ 32 0#32))) (addi x6 (broadcastInDim S800000 ![] bcast_S_S800000 (constantI S_ 32 50000#32))) x6)))

/-- When every destination index is nonnegative, the first program's aggregated rows are the second program's
    (its buffer 15: `(1 + eps) * feat` plus the scatter from zeros at the unwrapped destination rows). -/
theorem rst_agree (x0 : FVec Ideal S50000x128 .f32) (x1 : FVec Ideal S1 .f32) (x6 x7 : IVec S800000 32)
    (h7 : ∀ e, 0 ≤ (x7 e).toInt) :
    rstKernel x0 x1 x6 x7 = Cert.ReferenceIdeal.Read.val_main_v15 (F := Ideal) x0 x1 x6 x7 := by
  unfold rstKernel
  rw [wrap_of_nonneg x7 (broadcastInDim S800000 ![] bcast_S_S800000 (constantI S_ 32 0#32))
    (addi x7 (broadcastInDim S800000 ![] bcast_S_S800000 (constantI S_ 32 50000#32))) (fun _ => rfl) h7]
  refine (scatterAdd_into_eq_add_scatterAdd_zero scatter_S50000x128_S800000x1_S800000x128_1_0_0_1 _
    (Cert.ReferenceIdeal.Read.val_main_v7 (F := Ideal)) (fun i => ?_) _ _).trans ?_
  · show Ideal.ofBits .f32 0x00000000#32 = 0
    exact Ideal.ofBits_zero_f32
  · rfl

end Cert.Gin

end
-- ==== Proof.KernelValue.lean ====
/-
  From blocks to the whole array: what the kernel's program leaves in its result.

  The rows are treated in ten blocks of 5000. At the t-th block the body reads block t of the aggregated rows
  `rst` and, every time, the whole of the two weight matrices and the two bias rows, and writes block t of the
  result. An entry (y0, y1) of block t is entry (5000 * t + y0, y1) of the array, and row y0 of block t of `rst` is
  row 5000 * t + y0 of `rst`. Since the body's value at an entry is the perceptron of that row (the block module),
  what the t-th point writes back is block t of ONE function of the arrays: the perceptron applied to every row of
  `rst`. The ten blocks tile the 50000 rows (row r lies in block r / 5000), so the result array ends holding that
  function everywhere.

  The arrays the body reads are those the program holds when the kernel is launched: `rst` as the host operations
  before the launch formed it, and the weight matrices rounded to the narrower format, which over the extended reals
  are the weight matrices themselves.
-/
import proofs.«172849_j31121333027433_2_alg».proof.Proof.Gen.KernelIdeal.Value
import proofs.«172849_j31121333027433_2_alg».proof.Proof.BlockRow
import proofs.«172849_j31121333027433_2_alg».proof.Proof.Aggregate
import Idealize.ShloMosaic.Lib.StableHlo.Run

set_option maxRecDepth 16384

noncomputable section

namespace Cert.Gin

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero2 : (![0, 0] : Fin 2 → Nat) = fun _ => 0 := funext fun a => by fin_cases a <;> rfl
theorem offsets_zero1 : (![0] : Fin 1 → Nat) = fun _ => 0 := funext fun a => by fin_cases a <;> rfl

/-- The body's stored value at an entry `y` of a block, against the array entry `i` it will be written to: if row
    `y 0` of the loaded block of `rst` is row `i 0` of the array `rst`, the other four loads are the whole arrays, and
    the columns agree, the value is the perceptron of the array at `i`. -/
theorem block_entry (x0 : FVec Ideal S5000x128 .f32) (x1 : FVec Ideal S128x128 .bf16) (x2 : FVec Ideal S128 .f32)
    (x3 : FVec Ideal S128x128 .bf16) (x4 : FVec Ideal S128 .f32) (y : S5000x128.Idx)
    (rst : FVec Ideal S50000x128 .f32) (W1 : FVec Ideal S128x128 .bf16) (b1 : FVec Ideal S128 .f32)
    (W2 : FVec Ideal S128x128 .bf16) (b2 : FVec Ideal S128 .f32) (i : S50000x128.Idx)
    (h0 : ∀ j : Fin 128, x0 (ix2 (n0 := 5000) (n1 := 128) (y 0) j) = rst (ix2 (n0 := 50000) (n1 := 128) (i 0) j))
    (h1 : x1 = W1) (h2 : x2 = b1) (h3 : x3 = W2) (h4 : x4 = b2) (hc : (y 1).val = (i 1).val) :
    k0_pay1 (F := Ideal) x0 x1 x2 x3 x4 y = mlp rst W1 b1 W2 b2 i := by
  subst h1 h2 h3 h4
  refine (congrArg (k0_pay1 (F := Ideal) x0 x1 x2 x3 x4) (eq_ix2 y)).trans ?_
  refine (stored_entry x0 x1 x2 x3 x4 (y 0) (y 1)).trans ?_
  unfold mlp
  rw [show (fun j : Fin 128 => x0 (ix2 (n0 := 5000) (n1 := 128) (y 0) j)) = fun j => rst (ix2 (n0 := 50000) (n1 := 128) (i 0) j) from funext h0,
    show (y 1 : Fin 128) = i 1 from Fin.ext hc]

/-- The printed index maps, decided once over the ten grid points: the block of `rst` moves with the result's block
    along the rows, every other window stays at block 0, and the result's block number is at most 9. -/
theorem index_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 9 :=
  (by decide +kernel : ∀ t : Fin grid0.N, _)

/-- Every one of the ten row blocks is some grid point's. -/
theorem index_onto : ∀ q0 : Fin 10, ∃ t : Fin cfg0.N, win0_5.index t = ![q0.val, 0] :=
  (by decide +kernel : ∀ q0 : Fin 10, ∃ t : Fin grid0.N, win0_5.index t = ![q0.val, 0])

/-- WHAT POINT `t` WRITES BACK is block `t` of the perceptron applied to every row of the arrays as the kernel
    finds them. -/
theorem flushed_eq (c : Dev nD) (t : Fin cfg0.N) :
    (dats m 0 c).flushed 5 t = ((cfg0.win 5).blk t).view.read (Elt Ideal)
      (mlp (V m c main_v18) (V m c main_v19) (V m c main_arg3) (V m c main_v20) (V m c main_arg5)) := by
  rw [Cert.KernelIdeal.Value.flushed5]
  unfold out0_5
  rw [View.canon_unit_zero offsets_zero2]
  simp only [View.ld_unit_zero (S := S5000x128) offsets_zero2, View.ld_unit_zero (S := S128x128) offsets_zero2,
    View.ld_unit_zero (S := S128) offsets_zero1]
  obtain ⟨e0, e1, e2, e3, e4, e5, e6, e7, e8, e9⟩ := index_facts t
  funext y
  show k0_pay1 (F := Ideal) (iblk m c 0 t) (iblk m c 1 t) (iblk m c 2 t) (iblk m c 3 t) (iblk m c 4 t) y
    = mlp (V m c main_v18) (V m c main_v19) (V m c main_arg3) (V m c main_v20) (V m c main_arg5) (((cfg0.win 5).blk t).view.emb y)
  refine block_entry (iblk m c 0 t) (iblk m c 1 t) (iblk m c 2 t) (iblk m c 3 t) (iblk m c 4 t) y
    (V m c main_v18) (V m c main_v19) (V m c main_arg3) (V m c main_v20) (V m c main_arg5) (((cfg0.win 5).blk t).view.emb y) ?_ ?_ ?_ ?_ ?_ ?_
  · intro j
    show V m c main_v18 (((cfg0.win 0).blk t).view.emb (ix2 (n0 := 5000) (n1 := 128) (y 0) j))
      = V m c main_v18 (ix2 (n0 := 50000) (n1 := 128) ((((cfg0.win 5).blk t).view.emb y) 0) j)
    refine congrArg (V m c main_v18) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * j.val = j.val; omega
  · funext j
    show V m c main_v19 (((cfg0.win 1).blk t).view.emb j) = V m c main_v19 j
    refine congrArg (V m c main_v19) (funext fun a => Fin.ext ?_)
    match a with
    | ⟨0, _⟩ => show win0_1.index t (0 : Fin 2) * 128 + 1 * (j 0).val = (j 0).val; omega
    | ⟨1, _⟩ => show win0_1.index t (1 : Fin 2) * 128 + 1 * (j 1).val = (j 1).val; omega
  · funext j
    show V m c main_arg3 (((cfg0.win 2).blk t).view.emb j) = V m c main_arg3 j
    refine congrArg (V m c main_arg3) (funext fun a => Fin.ext ?_)
    match a with
    | ⟨0, _⟩ => show win0_2.index t (0 : Fin 1) * 128 + 1 * (j 0).val = (j 0).val; omega
  · funext j
    show V m c main_v20 (((cfg0.win 3).blk t).view.emb j) = V m c main_v20 j
    refine congrArg (V m c main_v20) (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega
  · funext j
    show V m c main_arg5 (((cfg0.win 4).blk t).view.emb j) = V m c main_arg5 j
    refine congrArg (V m c main_arg5) (funext fun a => Fin.ext ?_)
    match a with
    | ⟨0, _⟩ => show win0_4.index t (0 : Fin 1) * 128 + 1 * (j 0).val = (j 0).val; omega
  · show (y 1).val = win0_5.index t (1 : Fin 2) * 128 + 1 * (y 1).val
    omega

/-- An index of the result array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The ten blocks tile the array: row `r` lies in the block numbered `r / 5000`. -/
theorem rows_covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the run: the perceptron applied to every row of the arrays as the kernel finds them. -/
theorem result_array (c : Dev nD) : (dats m 0 c).arrAt 5 cfg0.N
    = mlp (V m c main_v18) (V m c main_v19) (V m c main_arg3) (V m c main_v20) (V m c main_arg5) :=
  (dats m 0 c).arrAt_eq_of_cover 5
    (mlp (V m c main_v18) (V m c main_v19) (V m c main_arg3) (V m c main_v20) (V m c main_arg5))
    (fun t _ => flushed_eq m c t) rows_covered

/-! ## The arrays the kernel finds -/

set_option maxHeartbeats 2000000 in
/-- The aggregated rows at the launch are the host operations' term of the arguments. -/
theorem found_rst (c : Dev nD) : (V m c main_v18 : S50000x128.Idx → EReal)
    = rstKernel (m ((c : Thread nD τ).loc main_arg0)) (m ((c : Thread nD τ).loc main_arg1))
        (m ((c : Thread nD τ).loc main_arg6)) (m ((c : Thread nD τ).loc main_arg7)) := by
  dsimp only [Gen.V, Gen.hostOps0]; after_results_simp; rfl

/-- The first weight matrix at the launch: rounded to the narrower format, which is the identity here. -/
theorem found_w1 (c : Dev nD) : (V m c main_v19 : S128x128.Idx → EReal) = m ((c : Thread nD τ).loc main_arg2) := by
  dsimp only [Gen.V, Gen.hostOps0]; after_results; rfl

/-- The second weight matrix likewise. -/
theorem found_w2 (c : Dev nD) : (V m c main_v20 : S128x128.Idx → EReal) = m ((c : Thread nD τ).loc main_arg4) := by
  dsimp only [Gen.V, Gen.hostOps0]; after_results; rfl

/-! ## The run -/

/-- Every weakly fair execution of the kernel's program terminates with the result array at the perceptron of every
    row of the aggregated rows (as this program forms them), and the arguments unchanged. -/
theorem run : θ_run defs (onTc (τ := τ) (main (F := Ideal))) ⟨m, fun _ => 0, ρ⟩ fun r => ∀ c : Dev nD,
      r.2.mem ((c : Thread nD τ).loc main_v21)
        = mlp (rstKernel (m ((c : Thread nD τ).loc main_arg0)) (m ((c : Thread nD τ).loc main_arg1))
              (m ((c : Thread nD τ).loc main_arg6)) (m ((c : Thread nD τ).loc main_arg7)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((result_array m c).trans (by
      rw [found_rst m c, found_w1 m c, found_w2 m c, V_main_arg3 m c, V_main_arg5 m c])), (h c).2⟩)
    (Cert.KernelIdeal.Value.run_blocks m ρ)

end Cert.Gin

end
-- ==== Proof.RefRow.lean ====
/-
  The reference's result, read at one entry.

  After it has formed the aggregated rows `rst` (its buffer 15), the reference multiplies the whole matrix by the
  first weight matrix, adds the first bias row repeated down all rows, takes the positive part, and does the same
  again with the second weights. Read at entry (n, c), a whole-matrix product is the sum over the contracted index of
  row n of the left factor against column c of the right one, so the result at (n, c) is the two-layer perceptron
  of row n of `rst`.
-/
import proofs.«172849_j31121333027433_2_alg».proof.Proof.Gen.ReferenceIdeal.Read
import proofs.«172849_j31121333027433_2_alg».proof.Proof.RowMlp

noncomputable section

namespace Cert.Gin

open Cert.ReferenceIdeal Cert.ReferenceIdeal.Gen Cert.ReferenceIdeal.Read Idealize.ShloMosaic Idealize.ShloMosaic.ValueIdx

/-- The factors' indices at entry `(n, c)` and contraction coordinate `k`: row `n` of the left factor, column `c` of
    the right one. -/
theorem left16 (n : Fin 50000) (c k : Fin 128) : lidx_main_v16 (ix2 n c) k = ix2 n k :=
  funext fun a => Fin.ext (by match a with | ⟨0, _⟩ => rfl | ⟨1, _⟩ => rfl)
theorem right16 (n : Fin 50000) (c k : Fin 128) : ridx_main_v16 (ix2 n c) k = ix2 k c :=
  funext fun a => Fin.ext (by match a with | ⟨0, _⟩ => rfl | ⟨1, _⟩ => rfl)
theorem left21 (n : Fin 50000) (c k : Fin 128) : lidx_main_v21 (ix2 n c) k = ix2 n k :=
  funext fun a => Fin.ext (by match a with | ⟨0, _⟩ => rfl | ⟨1, _⟩ => rfl)
theorem right21 (n : Fin 50000) (c k : Fin 128) : ridx_main_v21 (ix2 n c) k = ix2 k c :=
  funext fun a => Fin.ext (by match a with | ⟨0, _⟩ => rfl | ⟨1, _⟩ => rfl)
/-- A bias row repeated down the rows is read at the entry's column. -/
theorem bias18 (n : Fin 50000) (c : Fin 128) : idx_main_v17 (idx_main_v18 (ix2 n c)) = ix1 c :=
  funext fun a => Fin.ext (by match a with | ⟨0, _⟩ => rfl)
theorem bias23 (n : Fin 50000) (c : Fin 128) : idx_main_v22 (idx_main_v23 (ix2 n c)) = ix1 c :=
  funext fun a => Fin.ext (by match a with | ⟨0, _⟩ => rfl)

/-- The first layer of the reference at entry `(n, c)`: the dense layer of row `n` of the aggregated rows. -/
theorem reference_hidden (x0 : FVec Ideal S50000x128 .f32) (x1 : FVec Ideal S1 .f32) (x2 : FVec Ideal S128x128 .f32)
    (x3 : FVec Ideal S128 .f32) (x6 x7 : IVec S800000 32) (n : Fin 50000) (c : Fin 128) :
    val_main_v20 (F := Ideal) x0 x1 x2 x3 x6 x7 (ix2 n c)
      = dense (fun j => val_main_v15 (F := Ideal) x0 x1 x6 x7 (ix2 n j)) x2 x3 c := by
  rw [val_main_v20_apply, val_main_v19_apply, val_main_v16_apply, val_main_v18_apply, val_main_v17_apply,
    val_main_call0_v0_apply, val_main_call0_cst_apply, bias18]
  simp only [left16, right16]
  show max (_ + _) (Ideal.ofBits .f32 0x00000000#32) = _
  rw [Ideal.ofBits_zero_f32]
  rfl

/-- The reference's result at entry `(n, c)`: the two-layer perceptron of row `n` of the aggregated rows. -/
theorem reference_entry (x0 : FVec Ideal S50000x128 .f32) (x1 : FVec Ideal S1 .f32) (x2 : FVec Ideal S128x128 .f32)
    (x3 : FVec Ideal S128 .f32) (x4 : FVec Ideal S128x128 .f32) (x5 : FVec Ideal S128 .f32) (x6 x7 : IVec S800000 32)
    (n : Fin 50000) (c : Fin 128) :
    val_main_v25 (F := Ideal) x0 x1 x2 x3 x4 x5 x6 x7 (ix2 n c)
      = rowMlp (fun j => val_main_v15 (F := Ideal) x0 x1 x6 x7 (ix2 n j)) x2 x3 x4 x5 c := by
  rw [val_main_v25_apply, val_main_v24_apply, val_main_v21_apply, val_main_v23_apply, val_main_v22_apply,
    val_main_call1_v0_apply, val_main_call1_cst_apply, bias23]
  simp only [left21, right21, reference_hidden]
  show max (_ + _) (Ideal.ofBits .f32 0x00000000#32) = _
  rw [Ideal.ofBits_zero_f32]
  rfl

/-- So the reference's whole result is the perceptron applied to every row of its aggregated rows. -/
theorem reference_is_mlp (x0 : FVec Ideal S50000x128 .f32) (x1 : FVec Ideal S1 .f32) (x2 : FVec Ideal S128x128 .f32)
    (x3 : FVec Ideal S128 .f32) (x4 : FVec Ideal S128x128 .f32) (x5 : FVec Ideal S128 .f32) (x6 x7 : IVec S800000 32) :
    val_main_v25 (F := Ideal) x0 x1 x2 x3 x4 x5 x6 x7 = mlp (val_main_v15 (F := Ideal) x0 x1 x6 x7) x2 x3 x4 x5 := by
  funext i
  obtain ⟨n, c, rfl⟩ : ∃ (n : Fin 50000) (c : Fin 128), i = ix2 n c := ⟨i 0, i 1, eq_ix2 i⟩
  rw [mlp_apply]
  exact reference_entry x0 x1 x2 x3 x4 x5 x6 x7 n c

end Cert.Gin

end
-- ==== Proof.DstNonneg.lean ====
/-
  What the precondition says about the destination indices.

  The precondition is a conjunction of "every entry of this array satisfies ..." statements, one per array, printed
  as a chain of `and`s of all-reductions. Its last conjunct is over the destination index of every edge: read as a
  signed 32-bit integer it is at least 0. This module reads that one conjunct back as a statement about each edge.
-/
import proofs.«172849_j31121333027433_2_alg».proof.Proof.Gen.Pre_finite_inputs
import Idealize.ShloMosaic.Lib.ReduceAll
import Idealize.ShloMosaic.Lib.Affine
import Idealize.ShloMosaic.Lib.ValueIdx

noncomputable section

namespace Cert.Gin

open Idealize.ShloMosaic Idealize.ShloMosaic.ValueIdx Cert.Pre_finite_inputs

instance : Subsingleton S_.Idx := ⟨fun a b => funext fun d => d.elim0⟩

/-- If the precondition holds of the eight argument arrays, every edge's destination index, read signed, is
    nonnegative. -/
theorem dst_nonneg {F : FTy → Type} [FloatOps F] (x0 : FVec F S50000x128 .f32) (x1 : FVec F S1 .f32)
    (x2 : FVec F S128x128 .f32) (x3 : FVec F S128 .f32) (x4 : FVec F S128x128 .f32) (x5 : FVec F S128 .f32)
    (x6 x7 : IVec S800000 32) (h : fn (F := F) x0 x1 x2 x3 x4 x5 x6 x7 = fun _ => 1#1) (e : S800000.Idx) :
    0 ≤ (x7 e).toInt := by
  have h0 := congrFun h ix0
  dsimp only [fn, fn_part1] at h0
  have h1 := (IntOp.andi_eq_one.1 h0).2
  have h2 := Host.reduce_andi_all _ _ _ _ _ h1 e
  have h3 : IntOp.cmpi .sge (x7 e) 0#32 = 1#1 := h2
  have h4 := IntOp.cmpi_sge.1 h3
  have z0 : (0#32 : BitVec 32).toInt = 0 := by decide
  omega

end Cert.Gin

end
-- ==== Proof.lean ====
/-
  A graph-isomorphism layer in two spellings computes one function over the extended reals.

  Both programs take node features `feat` (50000 rows of 128), a scalar `eps`, two 128 x 128 weight matrices with
  their bias rows, and 800000 edges given as a source and a destination index each. Both form the aggregated rows
      rst[n, :] = (1 + eps) * feat[n, :] + sum over the edges e with destination n of feat[src e, :]
  and send every row through two dense layers, each followed by the positive part.

  They differ in three ways, none of which changes the value on exact extended reals.
  * One program starts the accumulating scatter from `(1 + eps) * feat`; the other scatters into zeros and adds
    `(1 + eps) * feat` afterwards. These agree by associativity and `0 + a = a`.
  * One program runs the two dense layers on ten blocks of 5000 rows, with the weights rounded to a narrower float
    format; the other multiplies the whole matrix at once. A row of the result depends only on the same row of
    `rst`, the blocks tile the rows, and a change of format is the identity on extended reals.
  * One program wraps a negative destination index `d` to `d + 50000`; the other uses `d` as it is (and an update
    whose row is out of range is dropped). This is a real difference of the two programs on negative destination
    indices; the precondition states that every destination index is nonnegative, and there the wrap is the identity.
    It is the only place where the precondition is used: no finiteness of any float input is needed.
-/
import proofs.«172849_j31121333027433_2_alg».proof.Defs
import proofs.«172849_j31121333027433_2_alg».proof.Proof.Gen.Kernel
import proofs.«172849_j31121333027433_2_alg».proof.Proof.Gen.Kernel.Skeleton
import proofs.«172849_j31121333027433_2_alg».proof.Proof.Gen.Kernel.Launch
import proofs.«172849_j31121333027433_2_alg».proof.Proof.Gen.Kernel.Points
import proofs.«172849_j31121333027433_2_alg».proof.Proof.Gen.Kernel.Frame
import proofs.«172849_j31121333027433_2_alg».proof.Proof.Gen.KernelIdeal
import proofs.«172849_j31121333027433_2_alg».proof.Proof.Gen.KernelIdeal.Skeleton
import proofs.«172849_j31121333027433_2_alg».proof.Proof.Gen.KernelIdeal.Launch
import proofs.«172849_j31121333027433_2_alg».proof.Proof.Gen.KernelIdeal.Points
import proofs.«172849_j31121333027433_2_alg».proof.Proof.Gen.KernelIdeal.Frame
import proofs.«172849_j31121333027433_2_alg».proof.Proof.Gen.ReferenceIdeal
import proofs.«172849_j31121333027433_2_alg».proof.Proof.Gen.Pre_finite_inputs
import proofs.«172849_j31121333027433_2_alg».proof.Proof.Gen.KernelIdeal.Value
import proofs.«172849_j31121333027433_2_alg».proof.Proof.Gen.ReferenceIdeal.Run
import proofs.«172849_j31121333027433_2_alg».proof.Proof.Gen.ReferenceIdeal.Read
import proofs.«172849_j31121333027433_2_alg».proof.Proof.KernelValue
import proofs.«172849_j31121333027433_2_alg».proof.Proof.RefRow
import proofs.«172849_j31121333027433_2_alg».proof.Proof.Aggregate
import proofs.«172849_j31121333027433_2_alg».proof.Proof.DstNonneg
import Idealize.ShloMosaic.Adequacy
import Idealize.ShloMosaic.Init

noncomputable section

namespace Cert.Proof

open Idealize.ShloMosaic Idealize.ShloMosaic.TcCoe Idealize.SL.Sem

/-- The word-level program terminates without a fault and leaves its arguments as they were. -/
theorem frame_kernel : Cert.frame_Kernel := fun m ρ _ => Cert.Kernel.Gen.frame m ρ

/-- So does the same program read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both runs end with the result array at the perceptron of every row of the aggregated rows. The two programs'
    aggregated rows agree because every destination index is nonnegative (the precondition), which makes the one
    program's index wrap the identity; the rest is `0 + a = a`. -/
theorem algebraic : Cert.algebraic_KernelIdeal_ReferenceIdeal := by
  intro m ρ m' ρ' hpre hagree
  refine ⟨_, Cert.Gin.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq _ _ _ _ _ _ _ _).trans ?_
  refine (Cert.Gin.reference_is_mlp _ _ _ _ _ _ _ _).trans ?_
  obtain ⟨a0, a1, a2, a3, a4, a5, a6, a7⟩ := hagree c
  rw [a0, a1, a2, a3, a4, a5, a6, a7]
  rw [Cert.Gin.rst_agree _ _ _ _ (Cert.Gin.dst_nonneg _ _ _ _ _ _ _ _ (hpre c))]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
